-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S1024x320 : Shape := ⟨2, ![1024, 320]⟩
abbrev S320 : Shape := ⟨1, ![320]⟩
abbrev S1024x1 : Shape := ⟨2, ![1024, 1]⟩
abbrev S1 : Shape := ⟨1, ![1]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S1024x320 : S_.BroadcastsInDim S1024x320 (![] : Fin 0 → Fin S1024x320.rank)
  reducesTo_S1024x320_S_d0_1 : S1024x320.ReducesTo [0, 1] S_
  bcast_S_S320 : S_.BroadcastsInDim S320 (![] : Fin 0 → Fin S320.rank)
  reducesTo_S320_S_d0 : S320.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S20000x1024 .f32) (main_arg1 : FVec F S1024x320 .f32) (main_arg2 : FVec F S320 .f32) (main_arg3 : FVec F S1024x1 .f32) (main_arg4 : FVec F S1 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S1024x320 .f32 := Host.absf main_arg1
  let main_cst_0 : FVec F S_ .f32 := constant S_ .f32 0x7F800000#32
  let main_v5 : FVec F S1024x320 .f32 := broadcastInDim S1024x320 ![] bcast_S_S1024x320 main_cst_0
  let main_v6 : IVec S1024x320 1 := cmpf .olt main_v4 main_v5
  let main_c_1 : IVec S_ 1 := constantI S_ 1 1#1
  let main_v7 : IVec S_ 1 := (fun x v => Host.reduce IntOp.andi x v reducesTo_S1024x320_S_d0_1 h_S_) main_v6 main_c_1
  let main_v8 : IVec S_ 1 := andi main_v3 main_v7
  let main_v9 : FVec F S320 .f32 := Host.absf main_arg2
  let main_cst_2 : FVec F S_ .f32 := constant S_ .f32 0x7F800000#32
  let main_v10 : FVec F S320 .f32 := broadcastInDim S320 ![] bcast_S_S320 main_cst_2
  let main_v11 : IVec S320 1 := cmpf .olt main_v9 main_v10
  let main_c_3 : IVec S_ 1 := constantI S_ 1 1#1
  let main_v12 : IVec S_ 1 := (fun x v => Host.reduce IntOp.andi x v reducesTo_S320_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S20000x1024 : Shape := ⟨2, ![20000, 1024]⟩
abbrev S1024x320 : Shape := ⟨2, ![1024, 320]⟩
abbrev S320 : Shape := ⟨1, ![320]⟩
abbrev S1024x1 : Shape := ⟨2, ![1024, 1]⟩
abbrev S1 : Shape := ⟨1, ![1]⟩
abbrev S1x320 : Shape := ⟨2, ![1, 320]⟩
abbrev S1x1 : Shape := ⟨2, ![1, 1]⟩
abbrev S20000x320 : Shape := ⟨2, ![20000, 320]⟩
abbrev S20000x1 : Shape := ⟨2, ![20000, 1]⟩
abbrev S1000x1024 : Shape := ⟨2, ![1000, 1024]⟩
abbrev S2000x320 : Shape := ⟨2, ![2000, 320]⟩
abbrev S2000x1 : Shape := ⟨2, ![2000, 1]⟩
abbrev S1000x320 : Shape := ⟨2, ![1000, 320]⟩
abbrev S1000x1 : Shape := ⟨2, ![1000, 1]⟩

abbrev nBuf : Space → Nat
  | .hbm => 9
  | .vmem => 12
  | .smem => 0
  | _ => 0

abbrev bufTy : (tb : Table) → Fin (tcTables nBuf tb) → BufTy
  | .hbm, ⟨0, _⟩ => ⟨S20000x1024, .f32⟩
  | .hbm, ⟨1, _⟩ => ⟨S1024x320, .f32⟩
  | .hbm, ⟨2, _⟩ => ⟨S320, .f32⟩
  | .hbm, ⟨3, _⟩ => ⟨S1024x1, .f32⟩
  | .hbm, ⟨4, _⟩ => ⟨S1, .f32⟩
  | .hbm, ⟨5, _⟩ => ⟨S1x320, .f32⟩
  | .hbm, ⟨6, _⟩ => ⟨S1x1, .f32⟩
  | .hbm, ⟨7, _⟩ => ⟨S20000x320, .f32⟩
  | .hbm, ⟨8, _⟩ => ⟨S20000x1, .f32⟩
  | .local _ .vmem, ⟨0, _⟩ => ⟨S1000x1024, .f32⟩
  | .local _ .vmem, ⟨1, _⟩ => ⟨S1000x1024, .f32⟩
  | .local _ .vmem, ⟨2, _⟩ => ⟨S1000x1024, .f32⟩
  | .local _ .vmem, ⟨3, _⟩ => ⟨S1000x1024, .f32⟩
  | .local _ .vmem, ⟨4, _⟩ => ⟨S1024x320, .f32⟩
  | .local _ .vmem, ⟨5, _⟩ => ⟨S1x320, .f32⟩
  | .local _ .vmem, ⟨6, _⟩ => ⟨S1024x1, .f32⟩
  | .local _ .vmem, ⟨7, _⟩ => ⟨S1x1, .f32⟩
  | .local _ .vmem, ⟨8, _⟩ => ⟨S2000x320, .f32⟩
  | .local _ .vmem, ⟨9, _⟩ => ⟨S2000x320, .f32⟩
  | .local _ .vmem, ⟨10, _⟩ => ⟨S2000x1, .f32⟩
  | .local _ .vmem, ⟨11, _⟩ => ⟨S2000x1, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S320_S1x320 : S320.ShapeCasts S1x320
  shapeCasts_S1_S1x1 : S1.ShapeCasts S1x1
  inb_S1024x320_S1024x320_0_0 : ∀ a, (![0, 0] : Fin 2 → Nat) a + S1024x320.size a ≤ S1024x320.size a
  h_S1024x320 : 0 < S1024x320.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1000x1024_S1000x1024_0_0 : ∀ a, (![0, 0] : Fin 2 → Nat) a + S1000x1024.size a ≤ S1000x1024.size a
  h_S1000x1024 : 0 < S1000x1024.numel
  broadcasts_S1x320_S1000x320 : S1x320.Broadcasts S1000x320
  inb_S2000x320_S1000x320_0_0 : ∀ a, (![0, 0] : Fin 2 → Nat) a + S1000x320.size a ≤ S2000x320.size a
  h_S1000x320 : 0 < S1000x320.numel
  broadcasts_S1x1_S1000x1 : S1x1.Broadcasts S1000x1
  inb_S2000x1_S1000x1_0_0 : ∀ a, (![0, 0] : Fin 2 → Nat) a + S1000x1.size a ≤ S2000x1.size a
  h_S1000x1 : 0 < S1000x1.numel
  inb_S2000x320_S1000x320_1000_0 : ∀ a, (![1000, 0] : Fin 2 → Nat) a + S1000x320.size a ≤ S2000x320.size a
  inb_S2000x1_S1000x1_1000_0 : ∀ a, (![1000, 0] : Fin 2 → Nat) a + S1000x1.size a ≤ S2000x1.size a
  dot_S1000x1024_S1024x320_S1000x320_1_0_0_1_n_n_wf : DotDims.WF S1000x1024 S1024x320 S1000x320 [1] [0] [0] [1] [] []
  dot_S1000x1024_S1024x1_S1000x1_1_0_0_1_n_n_wf : DotDims.WF S1000x1024 S1024x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S20000x1024.size a
  hwx0_0 : ∀ i : grid0.Coords, EltTy.bits .f32 = 32 ∨ (Rect.block (s := S20000x1024) S1000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S20000x1024.size a
  hwx0_1 : ∀ i : grid0.Coords, EltTy.bits .f32 = 32 ∨ (Rect.block (s := S20000x1024) S1000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x320.size a ≤ S1024x320.size a
  hwx0_2 : ∀ i : grid0.Coords, EltTy.bits .f32 = 32 ∨ (Rect.block (s := S1024x320) S1024x320.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x320.size a ≤ S1x320.size a
  hwx0_3 : ∀ i : grid0.Coords, EltTy.bits .f32 = 32 ∨ (Rect.block (s := S1x320) S1x320.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .f32 = 32 ∨ (Rect.block (s := S1024x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x320.size a ≤ S20000x320.size a
  hwx0_6 : ∀ i : grid0.Coords, EltTy.bits .f32 = 32 ∨ (Rect.block (s := S20000x320) S2000x320.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S20000x1.size a
  hwx0_7 : ∀ i : grid0.Coords, EltTy.bits .f32 = 32 ∨ (Rect.block (s := S20000x1) S2000x1.size (cc0_transform_7 i) (hinb0_7 i)).WholeWords (EltTy.packing .f32)

variable [Facts₀]

def dot_S1000x1024_S1024x320_S1000x320_1_0_0_1_n_n : DotDims S1000x1024 S1024x320 S1000x320 where
  lhsContracting := [1]
  rhsContracting := [0]
  lhsNonContracting := [0]
  rhsNonContracting := [1]
  lhsBatch := []
  rhsBatch := []
  wf := dot_S1000x1024_S1024x320_S1000x320_1_0_0_1_n_n_wf
def dot_S1000x1024_S1024x1_S1000x1_1_0_0_1_n_n : DotDims S1000x1024 S1024x1 S1000x1 where
  lhsContracting := [1]
  rhsContracting := [0]
  lhsNonContracting := [0]
  rhsNonContracting := [1]
  lhsBatch := []
  rhsBatch := []
  wf := dot_S1000x1024_S1024x1_S1000x1_1_0_0_1_n_n_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S2000x320.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S2000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S1024x320 : Shape := ⟨2, ![1024, 320]⟩
abbrev S320 : Shape := ⟨1, ![320]⟩
abbrev S1024x1 : Shape := ⟨2, ![1024, 1]⟩
abbrev S1 : Shape := ⟨1, ![1]⟩
abbrev S20000x320 : Shape := ⟨2, ![20000, 320]⟩
abbrev S1x320 : Shape := ⟨2, ![1, 320]⟩
abbrev S20000x1 : Shape := ⟨2, ![20000, 1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S1024x320, .f32⟩
  | .hbm, ⟨2, _⟩ => ⟨S320, .f32⟩
  | .hbm, ⟨3, _⟩ => ⟨S1024x1, .f32⟩
  | .hbm, ⟨4, _⟩ => ⟨S1, .f32⟩
  | .hbm, ⟨5, _⟩ => ⟨S20000x320, .f32⟩
  | .hbm, ⟨6, _⟩ => ⟨S1x320, .f32⟩
  | .hbm, ⟨7, _⟩ => ⟨S20000x320, .f32⟩
  | .hbm, ⟨8, _⟩ => ⟨S20000x320, .f32⟩
  | .hbm, ⟨9, _⟩ => ⟨S20000x1, .f32⟩
  | .hbm, ⟨10, _⟩ => ⟨S1x1, .f32⟩
  | .hbm, ⟨11, _⟩ => ⟨S20000x1, .f32⟩
  | .hbm, ⟨12, _⟩ => ⟨S20000x1, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S320_S1x320_1 : S320.BroadcastsInDim S1x320 (![1] : Fin 1 → Fin S1x320.rank)
  bcast_S1x320_S20000x320_0_1 : S1x320.BroadcastsInDim S20000x320 (![0, 1] : Fin 2 → Fin S20000x320.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  dot_S20000x1024_S1024x320_S20000x320_1_0_0_1_n_n_wf : DotDims.WF S20000x1024 S1024x320 S20000x320 [1] [0] [0] [1] [] []
  dot_S20000x1024_S1024x1_S20000x1_1_0_0_1_n_n_wf : DotDims.WF S20000x1024 S1024x1 S20000x1 [1] [0] [0] [1] [] []

variable [Facts₀]

def dot_S20000x1024_S1024x320_S20000x320_1_0_0_1_n_n : DotDims S20000x1024 S1024x320 S20000x320 where
  lhsContracting := [1]
  rhsContracting := [0]
  lhsNonContracting := [0]
  rhsNonContracting := [1]
  lhsBatch := []
  rhsBatch := []
  wf := dot_S20000x1024_S1024x320_S20000x320_1_0_0_1_n_n_wf
def dot_S20000x1024_S1024x1_S20000x1_1_0_0_1_n_n : DotDims S20000x1024 S1024x1 S20000x1 where
  lhsContracting := [1]
  rhsContracting := [0]
  lhsNonContracting := [0]
  rhsNonContracting := [1]
  lhsBatch := []
  rhsBatch := []
  wf := dot_S20000x1024_S1024x1_S20000x1_1_0_0_1_n_n_wf

class Facts : Prop extends Facts₀ where

variable [Facts]
-- ==== Proof.FrameBits.lean ====
/-
  The frame of the fused two-head linear layer, as printed, read at the machine's words (and at any other reading of the floats): the program terminates, nothing faults, and its five
  argument arrays end as launched.

  The kernel call tiles the 20000 rows of the activations in ten steps of 2000 rows. It is handed the activations TWICE
  — operand 0 reads rows 2000 t … 2000 t + 999 at step t, operand 1 rows 2000 t + 1000 … 2000 t + 1999 — beside the two
  weights and the two biases (whole, fetched once), and writes back one [2000,320] and one [2000,1] block per step. Two
  operands on one array means the array's ownership has to be divided between them for the duration of the call: each
  gets half of its share, which is enough to read it and lets nobody write it. Everything else is the plain shape of a
  pipelined call: what each buffer holds when the body starts, what the body leaves (its two stores per result buffer
  laid over one another), and the launch.
-/
import proofs.«127572_g18090402250919_cont_8to1_232_7_alg».proof.Proof.Gen.Kernel.Launch
import proofs.«127572_g18090402250919_cont_8to1_232_7_alg».proof.Proof.Gen.Kernel.Skeleton
import proofs.«127572_g18090402250919_cont_8to1_232_7_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel call

Two reshapes run on the host first: the bias vectors become a [1,320] row and a [1,1] cell. Neither writes an
argument array, so the call finds every argument as launched. -/

/-- The device's buffers when the kernel call is entered: as the two reshapes leave them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two reshapes, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The blocks

Operand `w`'s block at grid point `t`: rows 2000 t … 2000 t + 999 of the activations for operand 0, rows
2000 t + 1000 … 2000 t + 1999 for operand 1 (the same array, handed to the call twice), the whole of each weight and bias. -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input operand's current buffer holds its block at every grid point, fetched there or not (the weights and biases are
    fetched once, at the first point, and their block never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers

The body loads both weights, both biases and the two row blocks whole; per row block it writes
x·W + b into the matching half of the [2000,320] buffer and x·w' + b' into the matching half of the [2000,1] one. -/

abbrev rW : Rect S1024x320 := Rect.unit (s := S1024x320) ![0, 0] S1024x320.size inb_S1024x320_S1024x320_0_0
abbrev rWi : Rect S1024x1 := Rect.unit (s := S1024x1) ![0, 0] S1024x1.size inb_S1024x1_S1024x1_0_0
abbrev rB : Rect S1x320 := Rect.unit (s := S1x320) ![0, 0] S1x320.size inb_S1x320_S1x320_0_0
abbrev rBi : Rect S1x1 := Rect.unit (s := S1x1) ![0, 0] S1x1.size inb_S1x1_S1x1_0_0
abbrev rX : Rect S1000x1024 := Rect.unit (s := S1000x1024) ![0, 0] S1000x1024.size inb_S1000x1024_S1000x1024_0_0
abbrev rLo : Rect S2000x320 := Rect.unit (s := S2000x320) ![0, 0] S1000x320.size inb_S2000x320_S1000x320_0_0
abbrev rHi : Rect S2000x320 := Rect.unit (s := S2000x320) ![1000, 0] S1000x320.size inb_S2000x320_S1000x320_1000_0
abbrev rLo1 : Rect S2000x1 := Rect.unit (s := S2000x1) ![0, 0] S1000x1.size inb_S2000x1_S1000x1_0_0
abbrev rHi1 : Rect S2000x1 := Rect.unit (s := S2000x1) ![1000, 0] S1000x1.size inb_S2000x1_S1000x1_1000_0

/-- The [2000,320] buffer after the body: its two stores, the later one first. -/
def out6 (x0 x1 : Vec F S1000x1024 .f32) (w : Vec F S1024x320 .f32) (b : Vec F S1x320 .f32) : Vec F S2000x320 .f32 :=
  View.canon [⟨rHi, k0_pay9 (View.ld w rW) (View.ld b rB) (View.ld x1 rX)⟩, ⟨rLo, k0_pay6 (View.ld w rW) (View.ld b rB) (View.ld x0 rX)⟩]

/-- The [2000,1] buffer after the body. -/
def out7 (x0 x1 : Vec F S1000x1024 .f32) (wi : Vec F S1024x1 .f32) (bi : Vec F S1x1 .f32) : Vec F S2000x1 .f32 :=
  View.canon [⟨rHi1, k0_pay10 (View.ld wi rWi) (View.ld bi rBi) (View.ld x1 rX)⟩, ⟨rLo1, k0_pay7 (View.ld wi rWi) (View.ld bi rBi) (View.ld x0 rX)⟩]

/-- The two halves tile each buffer. -/
theorem cover6 (p1 p0 : Vec F S1000x320 .f32) (y : S2000x320.Idx) :
    ∃ pc ∈ ([⟨rHi, p1⟩, ⟨rLo, p0⟩] : List (View.Piece (Elt F) S2000x320 .f32)), y ∈ pc.1.set :=
  View.cover_of_tiled [⟨rHi, p1⟩, ⟨rLo, p0⟩] S1000x320.size (by rfl) y
theorem cover7 (p1 p0 : Vec F S1000x1 .f32) (y : S2000x1.Idx) :
    ∃ pc ∈ ([⟨rHi1, p1⟩, ⟨rLo1, p0⟩] : List (View.Piece (Elt F) S2000x1 .f32)), y ∈ pc.1.set :=
  View.cover_of_tiled [⟨rHi1, p1⟩, ⟨rLo1, p0⟩] S1000x1.size (by rfl) y

/-! ## The body's triple -/

set_option maxHeartbeats 1000000 in
/-- On whole buffers — the six inputs at read contents, the two results at anything — the body runs to its end, leaves the
    inputs as they were and each result buffer at its two stores laid over one another. -/
theorem sound_kernel (c : Dev nD) (E : Set ℕ) (i : grid0.Coords) (arg1 : Memref sig .tc .vmem S1000x1024 .f32) (harg1 : arg1.IsWhole) (arg2 : Memref sig .tc .vmem S1000x1024 .f32) (harg2 : arg2.IsWhole) (arg3 : Memref sig .tc .vmem S1024x320 .f32) (harg3 : arg3.IsWhole) (arg4 : Memref sig .tc .vmem S1x320 .f32) (harg4 : arg4.IsWhole) (arg5 : Memref sig .tc .vmem S1024x1 .f32) (harg5 : arg5.IsWhole) (arg6 : Memref sig .tc .vmem S1x1 .f32) (harg6 : arg6.IsWhole) (arg7 : Memref sig .tc .vmem S2000x320 .f32) (harg7 : arg7.IsWhole) (arg8 : Memref sig .tc .vmem S2000x1 .f32) (harg8 : arg8.IsWhole)
    (x0 x1 : Vec F S1000x1024 .f32) (w : Vec F S1024x320 .f32) (b : Vec F S1x320 .f32) (wi : Vec F S1024x1 .f32) (bi : Vec F S1x1 .f32) (K : PUnit → sProp 𝕄) :
    iprop(owns (c : Thread nD τ) arg1 fullShare x0 ∗ owns (c : Thread nD τ) arg2 fullShare x1 ∗ owns (c : Thread nD τ) arg3 fullShare w
        ∗ owns (c : Thread nD τ) arg4 fullShare b ∗ owns (c : Thread nD τ) arg5 fullShare wi ∗ owns (c : Thread nD τ) arg6 fullShare bi
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare w
            ∗ owns (c : Thread nD τ) arg4 fullShare b ∗ owns (c : Thread nD τ) arg5 fullShare wi ∗ owns (c : Thread nD τ) arg6 fullShare bi
            ∗ owns (c : Thread nD τ) arg7 fullShare (out6 x0 x1 w b) ∗ owns (c : Thread nD τ) arg8 fullShare (out7 x0 x1 wi bi)) -∗ K ⟨⟩))
      ⊢ wp frame (wpE (defs₀ (F := F)) Variants.none c none) E (cc0__fused_heads i arg1 harg1 arg2 harg2 arg3 harg3 arg4 harg4 arg5 harg5 arg6 harg6 arg7 harg7 arg8 harg8) K := by
  simp only [cc0__fused_heads_eq_skeleton]; unfold cc0__fused_heads_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _ _)
  iexists _; isplitr
  swap; · iexact H7
  ipureintro
  exact View.read_writes_eq_canon _ _ _ (cover7 _ _)

/-! ## The proof data

The two operands on the activations each hold half of that array's share: both only read it. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t)
    | ⟨7, _⟩ => out7 (iblk m c 0 t) (iblk m c 1 t) (iblk m c 4 t) (iblk m c 5 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) := by dsimp only [dats]
theorem after7 (c : Dev nD) (t : Fin cfg0.N) : (dats m 0 c).after 7 t = out7 (iblk m c 0 t) (iblk m c 1 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The launch

The kernel call is handed the activations twice. The library's launch for operands that share an array asks how
the array's full share is dealt among them: a left half to the first operand, a right half to the second. -/

abbrev EP : Emb (UR sig nD τ) (MT nD τ sig Unit (Elt F) ℕ (UR sig nD τ) ℕ) := emb₁

def u₀ : UR sig nD τ := initOf (Pipeline.cells cfgs cellOf_inj) (Pipeline.launchToks cfgs cellOf_inj)

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The operands' arrays at entry, each whole at its share. -/
theorem arrays_entry (c : Dev nD) :
    (dats m 0 c).arrays ((dats m 0 c).arrAt · 0)
      = bigSep Finset.univ fun w : Fin cfg0.W => ((((c.tc : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- The seven distinct buffers behind the eight operands, each whole at the full share, give every operand its array at
    its share: the activations' full share splits into the two halves. -/
theorem hsplit (c : Dev nD) :
    (Pipeline.arrBufs spec0 c (V m c) : sProp 𝕄) ⊢ (dats m 0 c).arrays ((dats m 0 c).arrAt · 0) := by
  rw [arrays_entry, bigSep_W0, share0, share1, share2, share3, share4, share5, share6, share7]
  unfold Pipeline.arrBufs
  rw [bigSep_eq_bigSepL_of_eq [main_arg0, main_arg1, main_v0, main_arg3, main_v1, main_v2_0, main_v2_1] (by decide) (by decide)]
  show (iprop((((c : Thread nD τ).loc main_arg0) ↦{fullShare} V m c main_arg0) ∗ (((c : Thread nD τ).loc main_arg1) ↦{fullShare} V m c main_arg1) ∗ (((c : Thread nD τ).loc main_v0) ↦{fullShare} V m c main_v0) ∗ (((c : Thread nD τ).loc main_arg3) ↦{fullShare} V m c main_arg3) ∗ (((c : Thread nD τ).loc main_v1) ↦{fullShare} V m c main_v1) ∗ (((c : Thread nD τ).loc main_v2_0) ↦{fullShare} V m c main_v2_0) ∗ (((c : Thread nD τ).loc main_v2_1) ↦{fullShare} V m c main_v2_1)) : sProp 𝕄) ⊢ _
  iintro ⟨Hx, Hw, Hb, Hwi, Hbi, Ho0, Ho1⟩
  ihave Hx2 := (pointsTo_share (PosShare.mem_left_op_right fullShare)).1 $$ Hx
  icases Hx2 with ⟨HxL, HxR⟩
  isplitl [HxL]; · iexact HxL
  isplitl [HxR]; · iexact HxR
  isplitl [Hw]; · iexact Hw
  isplitl [Hb]; · iexact Hb
  isplitl [Hwi]; · iexact Hwi
  isplitl [Hbi]; · iexact Hbi
  isplitl [Ho0]; · iexact Ho0
  iexact Ho1

-- the launch theorem's implicit arguments are found by unifying its conclusion with this one
set_option backward.isDefEq.respectTransparency.types false in
/-- For any values, from any memory with zero counters: every weakly fair execution of the program terminates, every operand's
    array ends at what the library computes from the proof data, and the two bias vectors (which bypass the call) as the call found them. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-! ## The frame -/

/-- The program runs to its end and leaves its five argument arrays as launched: the activations and the two weights are
    input operands (never written), the two bias vectors bypass the call. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.Kernel.Hand

end
-- ==== Proof.FrameIdeal.lean ====
/-
  The frame of the fused two-head linear layer, read at the ideal values (and at any other reading of the floats): the program terminates, nothing faults, and its five
  argument arrays end as launched.

  The kernel call tiles the 20000 rows of the activations in ten steps of 2000 rows. It is handed the activations TWICE
  — operand 0 reads rows 2000 t … 2000 t + 999 at step t, operand 1 rows 2000 t + 1000 … 2000 t + 1999 — beside the two
  weights and the two biases (whole, fetched once), and writes back one [2000,320] and one [2000,1] block per step. Two
  operands on one array means the array's ownership has to be divided between them for the duration of the call: each
  gets half of its share, which is enough to read it and lets nobody write it. Everything else is the plain shape of a
  pipelined call: what each buffer holds when the body starts, what the body leaves (its two stores per result buffer
  laid over one another), and the launch.
-/
import proofs.«127572_g18090402250919_cont_8to1_232_7_alg».proof.Proof.Gen.KernelIdeal.Launch
import proofs.«127572_g18090402250919_cont_8to1_232_7_alg».proof.Proof.Gen.KernelIdeal.Skeleton
import proofs.«127572_g18090402250919_cont_8to1_232_7_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel call

Two reshapes run on the host first: the bias vectors become a [1,320] row and a [1,1] cell. Neither writes an
argument array, so the call finds every argument as launched. -/

/-- The device's buffers when the kernel call is entered: as the two reshapes leave them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two reshapes, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The blocks

Operand `w`'s block at grid point `t`: rows 2000 t … 2000 t + 999 of the activations for operand 0, rows
2000 t + 1000 … 2000 t + 1999 for operand 1 (the same array, handed to the call twice), the whole of each weight and bias. -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input operand's current buffer holds its block at every grid point, fetched there or not (the weights and biases are
    fetched once, at the first point, and their block never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers

The body loads both weights, both biases and the two row blocks whole; per row block it writes
x·W + b into the matching half of the [2000,320] buffer and x·w' + b' into the matching half of the [2000,1] one. -/

abbrev rW : Rect S1024x320 := Rect.unit (s := S1024x320) ![0, 0] S1024x320.size inb_S1024x320_S1024x320_0_0
abbrev rWi : Rect S1024x1 := Rect.unit (s := S1024x1) ![0, 0] S1024x1.size inb_S1024x1_S1024x1_0_0
abbrev rB : Rect S1x320 := Rect.unit (s := S1x320) ![0, 0] S1x320.size inb_S1x320_S1x320_0_0
abbrev rBi : Rect S1x1 := Rect.unit (s := S1x1) ![0, 0] S1x1.size inb_S1x1_S1x1_0_0
abbrev rX : Rect S1000x1024 := Rect.unit (s := S1000x1024) ![0, 0] S1000x1024.size inb_S1000x1024_S1000x1024_0_0
abbrev rLo : Rect S2000x320 := Rect.unit (s := S2000x320) ![0, 0] S1000x320.size inb_S2000x320_S1000x320_0_0
abbrev rHi : Rect S2000x320 := Rect.unit (s := S2000x320) ![1000, 0] S1000x320.size inb_S2000x320_S1000x320_1000_0
abbrev rLo1 : Rect S2000x1 := Rect.unit (s := S2000x1) ![0, 0] S1000x1.size inb_S2000x1_S1000x1_0_0
abbrev rHi1 : Rect S2000x1 := Rect.unit (s := S2000x1) ![1000, 0] S1000x1.size inb_S2000x1_S1000x1_1000_0

/-- The [2000,320] buffer after the body: its two stores, the later one first. -/
def out6 (x0 x1 : Vec F S1000x1024 .f32) (w : Vec F S1024x320 .f32) (b : Vec F S1x320 .f32) : Vec F S2000x320 .f32 :=
  View.canon [⟨rHi, k0_pay9 (View.ld w rW) (View.ld b rB) (View.ld x1 rX)⟩, ⟨rLo, k0_pay6 (View.ld w rW) (View.ld b rB) (View.ld x0 rX)⟩]

/-- The [2000,1] buffer after the body. -/
def out7 (x0 x1 : Vec F S1000x1024 .f32) (wi : Vec F S1024x1 .f32) (bi : Vec F S1x1 .f32) : Vec F S2000x1 .f32 :=
  View.canon [⟨rHi1, k0_pay10 (View.ld wi rWi) (View.ld bi rBi) (View.ld x1 rX)⟩, ⟨rLo1, k0_pay7 (View.ld wi rWi) (View.ld bi rBi) (View.ld x0 rX)⟩]

/-- The two halves tile each buffer. -/
theorem cover6 (p1 p0 : Vec F S1000x320 .f32) (y : S2000x320.Idx) :
    ∃ pc ∈ ([⟨rHi, p1⟩, ⟨rLo, p0⟩] : List (View.Piece (Elt F) S2000x320 .f32)), y ∈ pc.1.set :=
  View.cover_of_tiled [⟨rHi, p1⟩, ⟨rLo, p0⟩] S1000x320.size (by rfl) y
theorem cover7 (p1 p0 : Vec F S1000x1 .f32) (y : S2000x1.Idx) :
    ∃ pc ∈ ([⟨rHi1, p1⟩, ⟨rLo1, p0⟩] : List (View.Piece (Elt F) S2000x1 .f32)), y ∈ pc.1.set :=
  View.cover_of_tiled [⟨rHi1, p1⟩, ⟨rLo1, p0⟩] S1000x1.size (by rfl) y

/-! ## The body's triple -/

set_option maxHeartbeats 1000000 in
/-- On whole buffers — the six inputs at read contents, the two results at anything — the body runs to its end, leaves the
    inputs as they were and each result buffer at its two stores laid over one another. -/
theorem sound_kernel (c : Dev nD) (E : Set ℕ) (i : grid0.Coords) (arg1 : Memref sig .tc .vmem S1000x1024 .f32) (harg1 : arg1.IsWhole) (arg2 : Memref sig .tc .vmem S1000x1024 .f32) (harg2 : arg2.IsWhole) (arg3 : Memref sig .tc .vmem S1024x320 .f32) (harg3 : arg3.IsWhole) (arg4 : Memref sig .tc .vmem S1x320 .f32) (harg4 : arg4.IsWhole) (arg5 : Memref sig .tc .vmem S1024x1 .f32) (harg5 : arg5.IsWhole) (arg6 : Memref sig .tc .vmem S1x1 .f32) (harg6 : arg6.IsWhole) (arg7 : Memref sig .tc .vmem S2000x320 .f32) (harg7 : arg7.IsWhole) (arg8 : Memref sig .tc .vmem S2000x1 .f32) (harg8 : arg8.IsWhole)
    (x0 x1 : Vec F S1000x1024 .f32) (w : Vec F S1024x320 .f32) (b : Vec F S1x320 .f32) (wi : Vec F S1024x1 .f32) (bi : Vec F S1x1 .f32) (K : PUnit → sProp 𝕄) :
    iprop(owns (c : Thread nD τ) arg1 fullShare x0 ∗ owns (c : Thread nD τ) arg2 fullShare x1 ∗ owns (c : Thread nD τ) arg3 fullShare w
        ∗ owns (c : Thread nD τ) arg4 fullShare b ∗ owns (c : Thread nD τ) arg5 fullShare wi ∗ owns (c : Thread nD τ) arg6 fullShare bi
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare w
            ∗ owns (c : Thread nD τ) arg4 fullShare b ∗ owns (c : Thread nD τ) arg5 fullShare wi ∗ owns (c : Thread nD τ) arg6 fullShare bi
            ∗ owns (c : Thread nD τ) arg7 fullShare (out6 x0 x1 w b) ∗ owns (c : Thread nD τ) arg8 fullShare (out7 x0 x1 wi bi)) -∗ K ⟨⟩))
      ⊢ wp frame (wpE (defs₀ (F := F)) Variants.none c none) E (cc0__fused_heads i arg1 harg1 arg2 harg2 arg3 harg3 arg4 harg4 arg5 harg5 arg6 harg6 arg7 harg7 arg8 harg8) K := by
  simp only [cc0__fused_heads_eq_skeleton]; unfold cc0__fused_heads_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _ _)
  iexists _; isplitr
  swap; · iexact H7
  ipureintro
  exact View.read_writes_eq_canon _ _ _ (cover7 _ _)

/-! ## The proof data

The two operands on the activations each hold half of that array's share: both only read it. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t)
    | ⟨7, _⟩ => out7 (iblk m c 0 t) (iblk m c 1 t) (iblk m c 4 t) (iblk m c 5 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) := by dsimp only [dats]
theorem after7 (c : Dev nD) (t : Fin cfg0.N) : (dats m 0 c).after 7 t = out7 (iblk m c 0 t) (iblk m c 1 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The launch

The kernel call is handed the activations twice. The library's launch for operands that share an array asks how
the array's full share is dealt among them: a left half to the first operand, a right half to the second. -/

abbrev EP : Emb (UR sig nD τ) (MT nD τ sig Unit (Elt F) ℕ (UR sig nD τ) ℕ) := emb₁

def u₀ : UR sig nD τ := initOf (Pipeline.cells cfgs cellOf_inj) (Pipeline.launchToks cfgs cellOf_inj)

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The operands' arrays at entry, each whole at its share. -/
theorem arrays_entry (c : Dev nD) :
    (dats m 0 c).arrays ((dats m 0 c).arrAt · 0)
      = bigSep Finset.univ fun w : Fin cfg0.W => ((((c.tc : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- The seven distinct buffers behind the eight operands, each whole at the full share, give every operand its array at
    its share: the activations' full share splits into the two halves. -/
theorem hsplit (c : Dev nD) :
    (Pipeline.arrBufs spec0 c (V m c) : sProp 𝕄) ⊢ (dats m 0 c).arrays ((dats m 0 c).arrAt · 0) := by
  rw [arrays_entry, bigSep_W0, share0, share1, share2, share3, share4, share5, share6, share7]
  unfold Pipeline.arrBufs
  rw [bigSep_eq_bigSepL_of_eq [main_arg0, main_arg1, main_v0, main_arg3, main_v1, main_v2_0, main_v2_1] (by decide) (by decide)]
  show (iprop((((c : Thread nD τ).loc main_arg0) ↦{fullShare} V m c main_arg0) ∗ (((c : Thread nD τ).loc main_arg1) ↦{fullShare} V m c main_arg1) ∗ (((c : Thread nD τ).loc main_v0) ↦{fullShare} V m c main_v0) ∗ (((c : Thread nD τ).loc main_arg3) ↦{fullShare} V m c main_arg3) ∗ (((c : Thread nD τ).loc main_v1) ↦{fullShare} V m c main_v1) ∗ (((c : Thread nD τ).loc main_v2_0) ↦{fullShare} V m c main_v2_0) ∗ (((c : Thread nD τ).loc main_v2_1) ↦{fullShare} V m c main_v2_1)) : sProp 𝕄) ⊢ _
  iintro ⟨Hx, Hw, Hb, Hwi, Hbi, Ho0, Ho1⟩
  ihave Hx2 := (pointsTo_share (PosShare.mem_left_op_right fullShare)).1 $$ Hx
  icases Hx2 with ⟨HxL, HxR⟩
  isplitl [HxL]; · iexact HxL
  isplitl [HxR]; · iexact HxR
  isplitl [Hw]; · iexact Hw
  isplitl [Hb]; · iexact Hb
  isplitl [Hwi]; · iexact Hwi
  isplitl [Hbi]; · iexact Hbi
  isplitl [Ho0]; · iexact Ho0
  iexact Ho1

-- the launch theorem's implicit arguments are found by unifying its conclusion with this one
set_option backward.isDefEq.respectTransparency.types false in
/-- For any values, from any memory with zero counters: every weakly fair execution of the program terminates, every operand's
    array ends at what the library computes from the proof data, and the two bias vectors (which bypass the call) as the call found them. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-! ## The frame -/

/-- The program runs to its end and leaves its five argument arrays as launched: the activations and the two weights are
    input operands (never written), the two bias vectors bypass the call. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.KernelIdeal.Hand

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.HeadsSpec.lean ====
/-
  The two linear heads as functions of the arrays, entry by entry, and the kernel body's four stored values read at an entry.

  A head over M rows is  out (r, c) = Σ_k X (r, k) · W (k, c) + B (0, c)  with the bias a one-row array. The body computes
  it on a block of 1000 rows: a product into a zero accumulator (the operands' rounding to a narrower format is the identity
  at the ideal values) plus the bias row broadcast down the rows.
-/
import proofs.«127572_g18090402250919_cont_8to1_232_7_alg».proof.Proof.Gen.KernelIdeal.Skeleton
import proofs.«127572_g18090402250919_cont_8to1_232_7_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Heads

open Cert.KernelIdeal Cert.KernelIdeal.Gen Idealize.ShloMosaic Idealize.ShloMosaic.ValueIdx

/-- A linear head with N outputs over M rows of 1024 features: entry (r, c) is the row's inner product with column c of the
    weight, plus the bias row's entry c. -/
def head (M N : ℕ) (X : (⟨2, ![M, 1024]⟩ : Shape).Idx → EReal) (W : (⟨2, ![1024, N]⟩ : Shape).Idx → EReal)
    (B : (⟨2, ![1, N]⟩ : Shape).Idx → EReal) : (⟨2, ![M, N]⟩ : Shape).Idx → EReal :=
  fun i => (∑ k : Fin 1024, X (ix2 (i 0) k) * W (ix2 k (i 1))) + B (ix2 (0 : Fin 1) (i 1))

theorem head_apply (M N : ℕ) (X : (⟨2, ![M, 1024]⟩ : Shape).Idx → EReal) (W : (⟨2, ![1024, N]⟩ : Shape).Idx → EReal)
    (B : (⟨2, ![1, N]⟩ : Shape).Idx → EReal) (r : Fin M) (c : Fin N) :
    head M N X W B (ix2 r c) = (∑ k : Fin 1024, X (ix2 r k) * W (ix2 k c)) + B (ix2 (0 : Fin 1) c) := rfl

/-- A head's row depends only on the same row of X: rows of a block are rows of the whole. -/
theorem head_rows (M M' N : ℕ) (X : (⟨2, ![M, 1024]⟩ : Shape).Idx → EReal) (X' : (⟨2, ![M', 1024]⟩ : Shape).Idx → EReal)
    (W : (⟨2, ![1024, N]⟩ : Shape).Idx → EReal) (B : (⟨2, ![1, N]⟩ : Shape).Idx → EReal) (r : Fin M) (r' : Fin M') (c : Fin N)
    (h : ∀ k : Fin 1024, X (ix2 r k) = X' (ix2 r' k)) : head M N X W B (ix2 r c) = head M' N X' W B (ix2 r' c) := by
  rw [head_apply, head_apply]
  exact congrArg (· + _) (Finset.sum_congr rfl fun k _ => by rw [h k])

/-- The same with the two entries given by their coordinates' values. -/
theorem head_of_rows (M M' N : ℕ) (X : (⟨2, ![M, 1024]⟩ : Shape).Idx → EReal) (X' : (⟨2, ![M', 1024]⟩ : Shape).Idx → EReal)
    (W : (⟨2, ![1024, N]⟩ : Shape).Idx → EReal) (B : (⟨2, ![1, N]⟩ : Shape).Idx → EReal)
    (i : (⟨2, ![M, N]⟩ : Shape).Idx) (i' : (⟨2, ![M', N]⟩ : Shape).Idx) (hc : (i 1).val = (i' 1).val)
    (h : ∀ k : Fin 1024, X (ix2 (i 0) k) = X' (ix2 (i' 0) k)) : head M N X W B i = head M' N X' W B i' := by
  have e : i 1 = i' 1 := Fin.ext hc
  unfold head
  rw [e]
  exact congrArg (· + _) (Finset.sum_congr rfl fun k _ => by rw [h k])

/-- The records of the two products are the plain M×K by K×N ones. -/
theorem dotD_eq : dot_S1000x1024_S1024x320_S1000x320_1_0_0_1_n_n = DotDims.plain 1000 1024 320 := rfl
theorem dotI_eq : dot_S1000x1024_S1024x1_S1000x1_1_0_0_1_n_n = DotDims.plain 1000 1024 1 := rfl

/-- The value stored into rows 0…999 of the [2000,320] buffer is the head of the first row block. -/
theorem pay6_eq (v0 : Vec Ideal S1024x320 .f32) (v4 : Vec Ideal S1x320 .f32) (v8 : Vec Ideal S1000x1024 .f32) (p : Fin 1000) (q : Fin 320) :
    k0_pay6 (F := Ideal) v0 v4 v8 (ix2 p q) = head 1000 320 v8 v0 v4 (ix2 p q) := by
  unfold k0_pay6 k0_pay5 k0_pay1 k0_pay3
  rw [head_apply]
  refine (addf_apply _ _ _).trans ?_
  refine congrArg₂ (· + ·) ?_ ?_
  · exact Cert.Lib.PlainDot.matmul_zero_apply 1000 1024 320 none _ _ (ix2 p q)
  · exact (broadcastTo_1b_ab_apply _ _ p q).trans (congrFun (shapeCast_self _ _) _)

/-- The value stored into rows 1000…1999 of it is the head of the second row block. -/
theorem pay9_eq (v0 : Vec Ideal S1024x320 .f32) (v4 : Vec Ideal S1x320 .f32) (v18 : Vec Ideal S1000x1024 .f32) (p : Fin 1000) (q : Fin 320) :
    k0_pay9 (F := Ideal) v0 v4 v18 (ix2 p q) = head 1000 320 v18 v0 v4 (ix2 p q) := by
  unfold k0_pay9 k0_pay8 k0_pay1 k0_pay3
  rw [head_apply]
  refine (addf_apply _ _ _).trans ?_
  refine congrArg₂ (· + ·) ?_ ?_
  · exact Cert.Lib.PlainDot.matmul_zero_apply 1000 1024 320 none _ _ (ix2 p q)
  · exact (broadcastTo_1b_ab_apply _ _ p q).trans (congrFun (shapeCast_self _ _) _)

/-- The same for the one-output head and the [2000,1] buffer. -/
theorem pay7_eq (v2 : Vec Ideal S1024x1 .f32) (v6 : Vec Ideal S1x1 .f32) (v8 : Vec Ideal S1000x1024 .f32) (p : Fin 1000) (q : Fin 1) :
    k0_pay7 (F := Ideal) v2 v6 v8 (ix2 p q) = head 1000 1 v8 v2 v6 (ix2 p q) := by
  unfold k0_pay7 k0_pay5 k0_pay2 k0_pay4
  rw [head_apply]
  refine (addf_apply _ _ _).trans ?_
  refine congrArg₂ (· + ·) ?_ ?_
  · exact Cert.Lib.PlainDot.matmul_zero_apply 1000 1024 1 none _ _ (ix2 p q)
  · exact (broadcastTo_1b_ab_apply _ _ p q).trans (congrFun (shapeCast_self _ _) _)

theorem pay10_eq (v2 : Vec Ideal S1024x1 .f32) (v6 : Vec Ideal S1x1 .f32) (v18 : Vec Ideal S1000x1024 .f32) (p : Fin 1000) (q : Fin 1) :
    k0_pay10 (F := Ideal) v2 v6 v18 (ix2 p q) = head 1000 1 v18 v2 v6 (ix2 p q) := by
  unfold k0_pay10 k0_pay8 k0_pay2 k0_pay4
  rw [head_apply]
  refine (addf_apply _ _ _).trans ?_
  refine congrArg₂ (· + ·) ?_ ?_
  · exact Cert.Lib.PlainDot.matmul_zero_apply 1000 1024 1 none _ _ (ix2 p q)
  · exact (broadcastTo_1b_ab_apply _ _ p q).trans (congrFun (shapeCast_self _ _) _)

end Cert.KernelIdeal.Heads

end
-- ==== Proof.HeadsBlocks.lean ====
/-
  The kernel's two results as whole arrays, at the ideal values.

  At step t the body's two stores into the [2000,320] buffer are the head of the first row block (rows 0…999) and of the
  second (rows 1000…1999); a head's row depends only on the same row of the activations, so entry j of the buffer is the head
  of the WHOLE activations at row 2000 t + j₀. Step t writes the buffer back onto rows 2000 t … 2000 t + 1999 of the result,
  and the ten steps' blocks cover its 20000 rows: the result is the head of the whole arrays. The [20000,1] result likewise.
-/
import proofs.«127572_g18090402250919_cont_8to1_232_7_alg».proof.Proof.FrameIdeal
import proofs.«127572_g18090402250919_cont_8to1_232_7_alg».proof.Proof.HeadsSpec
import Idealize.ShloMosaic.Lib.StableHlo.Run

set_option maxRecDepth 16384

noncomputable section

namespace Cert.KernelIdeal.HeadsValue

open Cert.KernelIdeal Cert.KernelIdeal.Gen Cert.KernelIdeal.Hand Cert.KernelIdeal.Heads
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- Entry j of the [2000,320] buffer after the body is the head of the whole activations at row 2000 T + j₀, when the two
    loaded row blocks are rows 2000 T … and 2000 T + 1000 … of them. -/
theorem out6_apply (X : S20000x1024.Idx → EReal) (x0 x1 : Vec Ideal S1000x1024 .f32) (w : Vec Ideal S1024x320 .f32) (b : Vec Ideal S1x320 .f32) (T : ℕ)
    (hx0 : ∀ (p : Fin 1000) (k : Fin 1024) (r : Fin 20000), r.val = 2000 * T + p.val → x0 (ix2 p k) = X (ix2 r k))
    (hx1 : ∀ (p : Fin 1000) (k : Fin 1024) (r : Fin 20000), r.val = 2000 * T + 1000 + p.val → x1 (ix2 p k) = X (ix2 r k))
    (j : S2000x320.Idx) (i : S20000x320.Idx) (hi0 : (i 0).val = 2000 * T + (j 0).val) (hi1 : (i 1).val = (j 1).val) :
    out6 x0 x1 w b j = head 20000 320 X w b i := by
  unfold out6
  simp only [View.ld_unit_zero (S := S1024x320) hz, View.ld_unit_zero (S := S1x320) hz, View.ld_unit_zero (S := S1000x1024) hz]
  have hj0 : (j 0).val < 2000 := idx2_lt0 j
  have hq : (j 1).val < 320 := (j 1).isLt
  by_cases hj : (j 0).val < 1000
  · have hnot : j ∉ (rHi).set := by
      rw [Rect.mem_set_unit]; intro h
      have h0 : (1000 : ℕ) ≤ (j 0).val := (h 0).1
      omega
    have hje : j = (rLo).emb (ix2 (⟨(j 0).val, hj⟩ : Fin 1000) (⟨(j 1).val, hq⟩ : Fin 320)) := by
      funext a; apply Fin.ext
      match a with
      | ⟨0, _⟩ => show (j 0).val = 0 + 1 * (j 0).val; omega
      | ⟨1, _⟩ => show (j 1).val = 0 + 1 * (j 1).val; omega
    refine (View.canon_cons_of_not_mem (⟨rHi, k0_pay9 w b x1⟩ : View.Piece (Elt Ideal) S2000x320 .f32) ([⟨rLo, k0_pay6 w b x0⟩] : List (View.Piece (Elt Ideal) S2000x320 .f32)) hnot).trans ?_
    refine (congrArg (View.canon ([⟨rLo, k0_pay6 w b x0⟩] : List (View.Piece (Elt Ideal) S2000x320 .f32))) hje).trans ?_
    refine (View.canon_cons_emb (Val := Elt Ideal) (e := .f32) (rLo) (k0_pay6 w b x0) [] _).trans ?_
    refine (pay6_eq w b x0 _ _).trans ?_
    exact head_of_rows 1000 20000 320 x0 X w b _ i hi1.symm fun k => hx0 ⟨(j 0).val, hj⟩ k (i 0) hi0
  · have hj' : (j 0).val - 1000 < 1000 := by omega
    have hje : j = (rHi).emb (ix2 (⟨(j 0).val - 1000, hj'⟩ : Fin 1000) (⟨(j 1).val, hq⟩ : Fin 320)) := by
      funext a; apply Fin.ext
      match a with
      | ⟨0, _⟩ => show (j 0).val = 1000 + 1 * ((j 0).val - 1000); omega
      | ⟨1, _⟩ => show (j 1).val = 0 + 1 * (j 1).val; omega
    refine (congrArg (View.canon ([⟨rHi, k0_pay9 w b x1⟩, ⟨rLo, k0_pay6 w b x0⟩] : List (View.Piece (Elt Ideal) S2000x320 .f32))) hje).trans ?_
    refine (View.canon_cons_emb (Val := Elt Ideal) (e := .f32) (rHi) (k0_pay9 w b x1) ([⟨rLo, k0_pay6 w b x0⟩] : List (View.Piece (Elt Ideal) S2000x320 .f32)) _).trans ?_
    refine (pay9_eq w b x1 _ _).trans ?_
    exact head_of_rows 1000 20000 320 x1 X w b _ i hi1.symm fun k => hx1 ⟨(j 0).val - 1000, hj'⟩ k (i 0) (by rw [hi0]; show _ = 2000 * T + 1000 + ((j 0).val - 1000); omega)

/-- Entry j of the [2000,1] buffer after the body is the head of the whole activations at row 2000 T + j₀, when the two
    loaded row blocks are rows 2000 T … and 2000 T + 1000 … of them. -/
theorem out7_apply (X : S20000x1024.Idx → EReal) (x0 x1 : Vec Ideal S1000x1024 .f32) (w : Vec Ideal S1024x1 .f32) (b : Vec Ideal S1x1 .f32) (T : ℕ)
    (hx0 : ∀ (p : Fin 1000) (k : Fin 1024) (r : Fin 20000), r.val = 2000 * T + p.val → x0 (ix2 p k) = X (ix2 r k))
    (hx1 : ∀ (p : Fin 1000) (k : Fin 1024) (r : Fin 20000), r.val = 2000 * T + 1000 + p.val → x1 (ix2 p k) = X (ix2 r k))
    (j : S2000x1.Idx) (i : S20000x1.Idx) (hi0 : (i 0).val = 2000 * T + (j 0).val) (hi1 : (i 1).val = (j 1).val) :
    out7 x0 x1 w b j = head 20000 1 X w b i := by
  unfold out7
  simp only [View.ld_unit_zero (S := S1024x1) hz, View.ld_unit_zero (S := S1x1) hz, View.ld_unit_zero (S := S1000x1024) hz]
  have hj0 : (j 0).val < 2000 := idx2_lt0 j
  have hq : (j 1).val < 1 := (j 1).isLt
  by_cases hj : (j 0).val < 1000
  · have hnot : j ∉ (rHi1).set := by
      rw [Rect.mem_set_unit]; intro h
      have h0 : (1000 : ℕ) ≤ (j 0).val := (h 0).1
      omega
    have hje : j = (rLo1).emb (ix2 (⟨(j 0).val, hj⟩ : Fin 1000) (⟨(j 1).val, hq⟩ : Fin 1)) := by
      funext a; apply Fin.ext
      match a with
      | ⟨0, _⟩ => show (j 0).val = 0 + 1 * (j 0).val; omega
      | ⟨1, _⟩ => show (j 1).val = 0 + 1 * (j 1).val; omega
    refine (View.canon_cons_of_not_mem (⟨rHi1, k0_pay10 w b x1⟩ : View.Piece (Elt Ideal) S2000x1 .f32) ([⟨rLo1, k0_pay7 w b x0⟩] : List (View.Piece (Elt Ideal) S2000x1 .f32)) hnot).trans ?_
    refine (congrArg (View.canon ([⟨rLo1, k0_pay7 w b x0⟩] : List (View.Piece (Elt Ideal) S2000x1 .f32))) hje).trans ?_
    refine (View.canon_cons_emb (Val := Elt Ideal) (e := .f32) (rLo1) (k0_pay7 w b x0) [] _).trans ?_
    refine (pay7_eq w b x0 _ _).trans ?_
    exact head_of_rows 1000 20000 1 x0 X w b _ i hi1.symm fun k => hx0 ⟨(j 0).val, hj⟩ k (i 0) hi0
  · have hj' : (j 0).val - 1000 < 1000 := by omega
    have hje : j = (rHi1).emb (ix2 (⟨(j 0).val - 1000, hj'⟩ : Fin 1000) (⟨(j 1).val, hq⟩ : Fin 1)) := by
      funext a; apply Fin.ext
      match a with
      | ⟨0, _⟩ => show (j 0).val = 1000 + 1 * ((j 0).val - 1000); omega
      | ⟨1, _⟩ => show (j 1).val = 0 + 1 * (j 1).val; omega
    refine (congrArg (View.canon ([⟨rHi1, k0_pay10 w b x1⟩, ⟨rLo1, k0_pay7 w b x0⟩] : List (View.Piece (Elt Ideal) S2000x1 .f32))) hje).trans ?_
    refine (View.canon_cons_emb (Val := Elt Ideal) (e := .f32) (rHi1) (k0_pay10 w b x1) ([⟨rLo1, k0_pay7 w b x0⟩] : List (View.Piece (Elt Ideal) S2000x1 .f32)) _).trans ?_
    refine (pay10_eq w b x1 _ _).trans ?_
    exact head_of_rows 1000 20000 1 x1 X w b _ i hi1.symm fun k => hx1 ⟨(j 0).val - 1000, hj'⟩ k (i 0) (by rw [hi0]; show _ = 2000 * T + 1000 + ((j 0).val - 1000); omega)

variable (m : (ℓ : Loc nD τ sig) → Buf (Elt Ideal) ℓ) (ρ : Dev nD → PrngReg)

/-! ## The blocks' places

At step t the first operand's block is rows 2000 t … 2000 t + 999 of the activations, the second's rows
2000 t + 1000 … 2000 t + 1999; the weights and biases are whole; the two results' blocks are rows 2000 t … 2000 t + 1999. -/

theorem idx_facts : ∀ t : Fin cfg0.N,
      win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem iblk0_apply (c : Dev nD) (t : Fin cfg0.N) (p : Fin 1000) (k : Fin 1024) (r : Fin 20000) (hr : r.val = 2000 * t.val + p.val) :
    iblk m c 0 t (ix2 p k) = V m c main_arg0 (ix2 r k) := by
  obtain ⟨e0, e1, -⟩ := idx_facts t
  unfold iblk
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 1000 + 1 * p.val = r.val; omega
  | ⟨1, _⟩ => show win0_0.index t (1 : Fin 2) * 1024 + 1 * k.val = k.val; omega

theorem iblk1_apply (c : Dev nD) (t : Fin cfg0.N) (p : Fin 1000) (k : Fin 1024) (r : Fin 20000) (hr : r.val = 2000 * t.val + 1000 + p.val) :
    iblk m c 1 t (ix2 p k) = V m c main_arg0 (ix2 r k) := by
  obtain ⟨-, -, e0, e1, -⟩ := idx_facts t
  unfold iblk
  show V m c main_arg0 (((cfg0.win 1).blk t).view.emb (ix2 p k)) = V m c main_arg0 (ix2 r k)
  refine congrArg _ (funext fun a => Fin.ext ?_)
  match a with
  | ⟨0, _⟩ => show win0_1.index t (0 : Fin 2) * 1000 + 1 * p.val = r.val; omega
  | ⟨1, _⟩ => show win0_1.index t (1 : Fin 2) * 1024 + 1 * k.val = k.val; omega

theorem iblk2_eq (c : Dev nD) (t : Fin cfg0.N) : (iblk m c 2 t : S1024x320.Idx → EReal) = V m c main_arg1 := by
  obtain ⟨-, -, -, -, e0, e1, -⟩ := idx_facts t
  funext y
  unfold iblk
  show V m c main_arg1 (((cfg0.win 2).blk t).view.emb y) = V m c main_arg1 y
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 320 + 1 * (y 1).val = (y 1).val; omega

theorem iblk3_eq (c : Dev nD) (t : Fin cfg0.N) : (iblk m c 3 t : S1x320.Idx → EReal) = V m c main_v0 := by
  obtain ⟨-, -, -, -, -, -, e0, e1, -⟩ := idx_facts t
  funext y
  unfold iblk
  show V m c main_v0 (((cfg0.win 3).blk t).view.emb y) = V m c main_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 320 + 1 * (y 1).val = (y 1).val; omega

theorem iblk4_eq (c : Dev nD) (t : Fin cfg0.N) : (iblk m c 4 t : S1024x1.Idx → EReal) = V m c main_arg3 := by
  obtain ⟨-, -, -, -, -, -, -, -, e0, e1, -⟩ := idx_facts t
  funext y
  unfold iblk
  show V m c main_arg3 (((cfg0.win 4).blk t).view.emb y) = V m c main_arg3 y
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 1 + 1 * (y 1).val = (y 1).val; omega

theorem iblk5_eq (c : Dev nD) (t : Fin cfg0.N) : (iblk m c 5 t : S1x1.Idx → EReal) = V m c main_v1 := by
  obtain ⟨-, -, -, -, -, -, -, -, -, -, e0, e1, -⟩ := idx_facts t
  funext y
  unfold iblk
  show V m c main_v1 (((cfg0.win 5).blk t).view.emb y) = V m c main_v1 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 1 + 1 * (y 1).val = (y 1).val; omega

/-! ## The two results as whole arrays -/

/-- The two heads of the arrays as the kernel call finds them (the biases already reshaped to rows). -/
def Gd (c : Dev nD) : S20000x320.Idx → EReal := head 20000 320 (V m c main_arg0) (V m c main_arg1) (V m c main_v0)
def Gi (c : Dev nD) : S20000x1.Idx → EReal := head 20000 1 (V m c main_arg0) (V m c main_arg3) (V m c main_v1)

/-- What step t writes back of the [20000,320] result is block t of the head of the whole arrays. -/
theorem flushed6_eq (c : Dev nD) (t : Fin cfg0.N) :
    (dats m 0 c).flushed 6 t = ((cfg0.win 6).blk t).view.read (Elt Ideal) (Gd m c) := by
  show (cfg0.win 6).cut (grid0.coords t) ((dats m 0 c).after 6 t) = _
  rw [after6, iblk2_eq, iblk3_eq]
  obtain ⟨-, -, -, -, -, -, -, -, -, -, -, -, e0, e1, -⟩ := idx_facts t
  funext j
  show out6 (iblk m c 0 t) (iblk m c 1 t) (V m c main_arg1) (V m c main_v0) j = Gd m c (((cfg0.win 6).blk t).view.emb j)
  refine out6_apply (V m c main_arg0) _ _ _ _ t.val (fun p k r hr => iblk0_apply m c t p k r hr) (fun p k r hr => iblk1_apply m c t p k r hr) j _ ?_ ?_
  · show win0_6.index t (0 : Fin 2) * 2000 + 1 * (j 0).val = 2000 * t.val + (j 0).val; omega
  · show win0_6.index t (1 : Fin 2) * 320 + 1 * (j 1).val = (j 1).val; omega

theorem mem_blk6 (t : Fin cfg0.N) (i : S20000x320.Idx) :
    i ∈ ((cfg0.win 6).blk t).view.set ↔ ∀ a : Fin 2, win0_6.index t a * S2000x320.size a ≤ (i a).val ∧ (i a).val < win0_6.index t a * S2000x320.size a + S2000x320.size a := by
  show i ∈ ((View.whole main_v2_0).slice (win0_6.rect t)).set ↔ _
  rw [View.set_slice_whole, Rect.mem_set_unit]
  exact Iff.rfl

/-- Row r of the result lies in the block of step r / 2000. -/
theorem covered6 (i : S20000x320.Idx) : ∃ t : Fin cfg0.N, (cfg0.win 6).flush t = true ∧ i ∈ ((cfg0.win 6).blk t).view.set := by
  have hi0 : (i 0).val < 20000 := idx2_lt0 i
  have hi1 : (i 1).val < 320 := (i 1).isLt
  have hN : cfg0.N = 10 := N_0
  have hlt : (i 0).val / 2000 < cfg0.N := by rw [hN]; omega
  obtain ⟨-, -, -, -, -, -, -, -, -, -, -, -, e0, e1, -⟩ := idx_facts ⟨(i 0).val / 2000, hlt⟩
  refine ⟨⟨(i 0).val / 2000, hlt⟩, flush0_6 _, ?_⟩
  rw [mem_blk6]
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    have e0' : win0_6.index ⟨(i 0).val / 2000, hlt⟩ (0 : Fin 2) = (i 0).val / 2000 := e0
    omega
  | ⟨1, _⟩ =>
    show win0_6.index ⟨(i 0).val / 2000, hlt⟩ (1 : Fin 2) * 320 ≤ (i 1).val ∧ (i 1).val < win0_6.index ⟨(i 0).val / 2000, hlt⟩ (1 : Fin 2) * 320 + 320
    omega

/-- The whole result after the run. -/
theorem final6 (c : Dev nD) : (dats m 0 c).arrAt 6 cfg0.N = Gd m c :=
  (dats m 0 c).arrAt_eq_of_cover 6 (Gd m c) (fun t _ => flushed6_eq m c t) covered6

/-- What step t writes back of the [20000,1] result is block t of the head of the whole arrays. -/
theorem flushed7_eq (c : Dev nD) (t : Fin cfg0.N) :
    (dats m 0 c).flushed 7 t = ((cfg0.win 7).blk t).view.read (Elt Ideal) (Gi m c) := by
  show (cfg0.win 7).cut (grid0.coords t) ((dats m 0 c).after 7 t) = _
  rw [after7, iblk4_eq, iblk5_eq]
  obtain ⟨-, -, -, -, -, -, -, -, -, -, -, -, -, -, e0, e1⟩ := idx_facts t
  funext j
  show out7 (iblk m c 0 t) (iblk m c 1 t) (V m c main_arg3) (V m c main_v1) j = Gi m c (((cfg0.win 7).blk t).view.emb j)
  refine out7_apply (V m c main_arg0) _ _ _ _ t.val (fun p k r hr => iblk0_apply m c t p k r hr) (fun p k r hr => iblk1_apply m c t p k r hr) j _ ?_ ?_
  · show win0_7.index t (0 : Fin 2) * 2000 + 1 * (j 0).val = 2000 * t.val + (j 0).val; omega
  · show win0_7.index t (1 : Fin 2) * 1 + 1 * (j 1).val = (j 1).val; omega

theorem mem_blk7 (t : Fin cfg0.N) (i : S20000x1.Idx) :
    i ∈ ((cfg0.win 7).blk t).view.set ↔ ∀ a : Fin 2, win0_7.index t a * S2000x1.size a ≤ (i a).val ∧ (i a).val < win0_7.index t a * S2000x1.size a + S2000x1.size a := by
  show i ∈ ((View.whole main_v2_1).slice (win0_7.rect t)).set ↔ _
  rw [View.set_slice_whole, Rect.mem_set_unit]
  exact Iff.rfl

/-- Row r of the result lies in the block of step r / 2000. -/
theorem covered7 (i : S20000x1.Idx) : ∃ t : Fin cfg0.N, (cfg0.win 7).flush t = true ∧ i ∈ ((cfg0.win 7).blk t).view.set := by
  have hi0 : (i 0).val < 20000 := idx2_lt0 i
  have hi1 : (i 1).val < 1 := (i 1).isLt
  have hN : cfg0.N = 10 := N_0
  have hlt : (i 0).val / 2000 < cfg0.N := by rw [hN]; omega
  obtain ⟨-, -, -, -, -, -, -, -, -, -, -, -, -, -, e0, e1⟩ := idx_facts ⟨(i 0).val / 2000, hlt⟩
  refine ⟨⟨(i 0).val / 2000, hlt⟩, flush0_7 _, ?_⟩
  rw [mem_blk7]
  intro a
  match a with
  | ⟨0, _⟩ =>
    show win0_7.index ⟨(i 0).val / 2000, hlt⟩ (0 : Fin 2) * 2000 ≤ (i 0).val ∧ (i 0).val < win0_7.index ⟨(i 0).val / 2000, hlt⟩ (0 : Fin 2) * 2000 + 2000
    have e0' : win0_7.index ⟨(i 0).val / 2000, hlt⟩ (0 : Fin 2) = (i 0).val / 2000 := e0
    omega
  | ⟨1, _⟩ =>
    show win0_7.index ⟨(i 0).val / 2000, hlt⟩ (1 : Fin 2) * 1 ≤ (i 1).val ∧ (i 1).val < win0_7.index ⟨(i 0).val / 2000, hlt⟩ (1 : Fin 2) * 1 + 1
    omega

/-- The whole result after the run. -/
theorem final7 (c : Dev nD) : (dats m 0 c).arrAt 7 cfg0.N = Gi m c :=
  (dats m 0 c).arrAt_eq_of_cover 7 (Gi m c) (fun t _ => flushed7_eq m c t) covered7

/-! ## The biases as the call finds them, and the run read -/

theorem V_main_v0 (c : Dev nD) : (V m c main_v0 : S1x320.Idx → EReal) = shapeCast S1x320 (m ((c : Thread nD τ).loc main_arg2)) shapeCasts_S320_S1x320 := by
  dsimp only [V, hostOps0]
  after_results
  rfl

theorem V_main_v1 (c : Dev nD) : (V m c main_v1 : S1x1.Idx → EReal) = shapeCast S1x1 (m ((c : Thread nD τ).loc main_arg4)) shapeCasts_S1_S1x1 := by
  dsimp only [V, hostOps0]
  after_results
  rfl

/-- The two results as functions of the five argument arrays as launched. -/
abbrev deltas (c : Dev nD) : S20000x320.Idx → EReal :=
  head 20000 320 (m ((c.tc : Thread nD τ).loc main_arg0)) (m ((c.tc : Thread nD τ).loc main_arg1)) (shapeCast S1x320 (m ((c.tc : Thread nD τ).loc main_arg2)) shapeCasts_S320_S1x320)
abbrev iou (c : Dev nD) : S20000x1.Idx → EReal :=
  head 20000 1 (m ((c.tc : Thread nD τ).loc main_arg0)) (m ((c.tc : Thread nD τ).loc main_arg3)) (shapeCast S1x1 (m ((c.tc : Thread nD τ).loc main_arg4)) shapeCasts_S1_S1x1)

theorem Gd_eq (c : Dev nD) : Gd m c = deltas m c := by
  unfold Gd; rw [V_main_arg0, V_main_arg1, V_main_v0]
theorem Gi_eq (c : Dev nD) : Gi m c = iou m c := by
  unfold Gi; rw [V_main_arg0, V_main_arg3, V_main_v1]

/-- At the ideal values every weakly fair execution of the kernel program terminates with the two results at the two heads
    of the arguments and the arguments unchanged. -/
theorem run : θ_run defs (onTc (τ := τ) (main (F := Ideal))) ⟨m, fun _ => 0, ρ⟩ fun r => ∀ c : Dev nD,
      r.2.mem ((c.tc : Thread nD τ).loc main_v2_0) = deltas m c
      ∧ r.2.mem ((c.tc : Thread nD τ).loc main_v2_1) = iou m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 6).trans ((final6 m c).trans (Gd_eq m c)),
      ((h c).1 7).trans ((final7 m c).trans (Gi_eq m c)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.KernelIdeal.HeadsValue

end
-- ==== Proof.RefSide.lean ====
/-
  The reference side: the plain jnp program's two results are the two linear heads of its arguments, entry by entry
  (a matrix product plus the bias, the bias first broadcast to a row and then down the rows).
-/
import proofs.«127572_g18090402250919_cont_8to1_232_7_alg».proof.Proof.Gen.ReferenceIdeal.Read
import proofs.«127572_g18090402250919_cont_8to1_232_7_alg».proof.Proof.HeadsSpec

noncomputable section

namespace Cert.ReferenceIdeal.RefValue

open Cert.ReferenceIdeal Cert.ReferenceIdeal.Read Cert.KernelIdeal.Heads Idealize.ShloMosaic Idealize.ShloMosaic.ValueIdx

/-- A vector reshaped to a one-row array reads, at (0, q), the vector's entry q. -/
theorem row_apply {n : ℕ} (b : (⟨1, ![n]⟩ : Shape).Idx → EReal) (h : (⟨1, ![n]⟩ : Shape).ShapeCasts ⟨2, ![1, n]⟩) (q : Fin n) :
    shapeCast ⟨2, ![1, n]⟩ b h (ix2 (0 : Fin 1) q) = b (ix1 q) :=
  shapeCast_apply b h _ _ (by
    rw [Shape.rowMajor_val_one, Shape.rowMajor_val_two]
    show q.val = 0 * n + q.val
    omega)

/-- The reference's box-regression result is the head of its arguments, the bias reshaped to a row. -/
theorem ref_deltas (X : S20000x1024.Idx → EReal) (W : S1024x320.Idx → EReal) (b : S320.Idx → EReal) (h : S320.ShapeCasts S1x320) :
    val_main_v3 (F := Ideal) X W b = head 20000 320 X W (shapeCast S1x320 b h) := by
  funext i
  have el : ∀ k, lidx_main_v0 i k = ix2 (i 0) k := fun k => funext fun a => Fin.ext (by match a with | ⟨0, _⟩ => rfl | ⟨1, _⟩ => rfl)
  have er : ∀ k, ridx_main_v0 i k = ix2 k (i 1) := fun k => funext fun a => Fin.ext (by match a with | ⟨0, _⟩ => rfl | ⟨1, _⟩ => rfl)
  have eb : idx_main_v1 (idx_main_v2 i) = ix1 (i 1) := funext fun a => Fin.ext (by match a with | ⟨0, _⟩ => rfl)
  rw [val_main_v3_apply, val_main_v0_apply, val_main_v2_apply, val_main_v1_apply, eb]
  unfold head
  simp only [el, er]
  exact congrArg (_ + ·) (row_apply b h (i 1)).symm

/-- The reference's one-output result is the head of its arguments, the bias reshaped to a row. -/
theorem ref_iou (X : S20000x1024.Idx → EReal) (W : S1024x1.Idx → EReal) (b : S1.Idx → EReal) (h : S1.ShapeCasts S1x1) :
    val_main_v7 (F := Ideal) X W b = head 20000 1 X W (shapeCast S1x1 b h) := by
  funext i
  have el : ∀ k, lidx_main_v4 i k = ix2 (i 0) k := fun k => funext fun a => Fin.ext (by match a with | ⟨0, _⟩ => rfl | ⟨1, _⟩ => rfl)
  have er : ∀ k, ridx_main_v4 i k = ix2 k (i 1) := fun k => funext fun a => Fin.ext (by match a with | ⟨0, _⟩ => rfl | ⟨1, _⟩ => rfl)
  have eb : idx_main_v5 (idx_main_v6 i) = ix1 (i 1) := funext fun a => Fin.ext (by match a with | ⟨0, _⟩ => (show (0 : ℕ) = (i 1).val; have h1 : (i 1).val < 1 := (i 1).isLt; omega))
  rw [val_main_v7_apply, val_main_v4_apply, val_main_v6_apply, val_main_v5_apply, eb]
  unfold head
  simp only [el, er]
  exact congrArg (_ + ·) (row_apply b h (i 1)).symm

end Cert.ReferenceIdeal.RefValue

end
-- ==== Proof.lean ====
/-
  The claim: the fused two-head kernel and its jnp reference compute the same two arrays over the extended reals.

  Both programs compute, for the activations X [20000,1024], weights W [1024,320], w' [1024,1] and biases b, b',
      deltas (r, c) = Σ_k X (r, k) · W (k, c) + b (c),      iou (r, 0) = Σ_k X (r, k) · w' (k, 0) + b' (0).
  The kernel does it in ten steps of 2000 rows, each step on two blocks of 1000 rows with the operands rounded to a narrower
  float format before the product (the identity at the ideal values) and the bias added as a broadcast row; the reference with
  two whole products and the bias broadcast down the rows. The two sides are the same sums in the same arrangement, so no law of
  the extended reals beyond reading both at an entry is needed, and the finiteness of the inputs is never used.

  The frames of the two kernel programs (as printed, and idealized) are Proof/FrameBits.lean and Proof/FrameIdeal.lean — the same
  text at the two programs —; the reference's frame is its run with the results dropped. The idealization rewrote nothing, so
  there is nothing to preserve. The kernel's results as whole arrays are Proof/HeadsBlocks.lean over Proof/HeadsSpec.lean; that the
  reference's are the same functions is Proof/RefSide.lean.
-/
import proofs.«127572_g18090402250919_cont_8to1_232_7_alg».proof.Defs
import proofs.«127572_g18090402250919_cont_8to1_232_7_alg».proof.Proof.FrameBits
import proofs.«127572_g18090402250919_cont_8to1_232_7_alg».proof.Proof.FrameIdeal
import proofs.«127572_g18090402250919_cont_8to1_232_7_alg».proof.Proof.HeadsBlocks
import proofs.«127572_g18090402250919_cont_8to1_232_7_alg».proof.Proof.RefSide
import proofs.«127572_g18090402250919_cont_8to1_232_7_alg».proof.Proof.Gen.Kernel
import proofs.«127572_g18090402250919_cont_8to1_232_7_alg».proof.Proof.Gen.KernelIdeal
import proofs.«127572_g18090402250919_cont_8to1_232_7_alg».proof.Proof.Gen.ReferenceIdeal
import proofs.«127572_g18090402250919_cont_8to1_232_7_alg».proof.Proof.Gen.ReferenceIdeal.Run
import proofs.«127572_g18090402250919_cont_8to1_232_7_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the two heads of the arguments. -/
theorem algebraic : Cert.algebraic_KernelIdeal_ReferenceIdeal := by
  intro m ρ m' ρ' _ hagree
  refine ⟨fun c => Cert.KernelIdeal.HeadsValue.deltas m c, fun c => Cert.KernelIdeal.HeadsValue.iou m c,
    Cert.KernelIdeal.HeadsValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1]
    exact (Cert.ReferenceIdeal.Read.val_main_v3_eq _ _ _).trans (Cert.ReferenceIdeal.RefValue.ref_deltas _ _ _ _)
  · rw [(hagree c).1, (hagree c).2.2.2.1, (hagree c).2.2.2.2]
    exact (Cert.ReferenceIdeal.Read.val_main_v7_eq _ _ _).trans (Cert.ReferenceIdeal.RefValue.ref_iou _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
